-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x1024 : Shape := ⟨3, ![128, 1024, 1024]⟩
abbrev S1048576x10 : Shape := ⟨2, ![1048576, 10]⟩
abbrev S_ : Shape := ⟨0, ![]⟩

class Facts : Prop where
  bcast_S_S128x1024x1024 : S_.BroadcastsInDim S128x1024x1024 (![] : Fin 0 → Fin S128x1024x1024.rank)
  reducesTo_S128x1024x1024_S_d0_1_2 : S128x1024x1024.ReducesTo [0, 1, 2] S_
  h_S_ : 0 < S_.numel
  bcast_S_S1048576x10 : S_.BroadcastsInDim S1048576x10 (![] : Fin 0 → Fin S1048576x10.rank)
  reducesTo_S1048576x10_S_d0_1 : S1048576x10.ReducesTo [0, 1] S_

variable [Facts]

def fn {F : FTy → Type} [FloatOps F] (main_arg0 : FVec F S128x1024x1024 .f32) (main_arg1 : FVec F S1048576x10 .f32) : IVec S_ 1 :=
  let main_v0 : FVec F S128x1024x1024 .f32 := Host.absf main_arg0
  let main_cst : FVec F S_ .f32 := constant S_ .f32 0x7F800000#32
  let main_v1 : FVec F S128x1024x1024 .f32 := broadcastInDim S128x1024x1024 ![] bcast_S_S128x1024x1024 main_cst
  let main_v2 : IVec S128x1024x1024 1 := cmpf .olt main_v0 main_v1
  let main_c : IVec S_ 1 := constantI S_ 1 1#1
  let main_v3 : IVec S_ 1 := (fun x v => Host.reduce IntOp.andi x v reducesTo_S128x1024x1024_S_d0_1_2 h_S_) main_v2 main_c
  let main_v4 : FVec F S1048576x10 .f32 := Host.absf main_arg1
  let main_cst_0 : FVec F S_ .f32 := constant S_ .f32 0x7F800000#32
  let main_v5 : FVec F S1048576x10 .f32 := broadcastInDim S1048576x10 ![] bcast_S_S1048576x10 main_cst_0
  let main_v6 : IVec S1048576x10 1 := cmpf .olt main_v4 main_v5
  let main_c_1 : IVec S_ 1 := constantI S_ 1 1#1
  let main_v7 : IVec S_ 1 := (fun x v => Host.reduce IntOp.andi x v reducesTo_S1048576x10_S_d0_1 h_S_) main_v6 main_c_1
  let main_v8 : IVec S_ 1 := andi main_v3 main_v7
  main_v8
-- ==== Kernel.lean ====
abbrev S128x1024x1024 : Shape := ⟨3, ![128, 1024, 1024]⟩
abbrev S1048576x10 : Shape := ⟨2, ![1048576, 10]⟩
abbrev S128x1048576 : Shape := ⟨2, ![128, 1048576]⟩
abbrev S10x1048576 : Shape := ⟨2, ![10, 1048576]⟩
abbrev S128x10 : Shape := ⟨2, ![128, 10]⟩
abbrev S64x65536 : Shape := ⟨2, ![64, 65536]⟩
abbrev S10x65536 : Shape := ⟨2, ![10, 65536]⟩
abbrev S64x10 : Shape := ⟨2, ![64, 10]⟩
abbrev S64 : Shape := ⟨1, ![64]⟩
abbrev S64x1 : Shape := ⟨2, ![64, 1]⟩

abbrev nBuf : Space → Nat
  | .hbm => 5
  | .vmem => 7
  | .smem => 0
  | _ => 0

abbrev bufTy : (tb : Table) → Fin (tcTables nBuf tb) → BufTy
  | .hbm, ⟨0, _⟩ => ⟨S128x1024x1024, .f32⟩
  | .hbm, ⟨1, _⟩ => ⟨S1048576x10, .f32⟩
  | .hbm, ⟨2, _⟩ => ⟨S128x1048576, .f32⟩
  | .hbm, ⟨3, _⟩ => ⟨S10x1048576, .f32⟩
  | .hbm, ⟨4, _⟩ => ⟨S128x10, .f32⟩
  | .local _ .vmem, ⟨0, _⟩ => ⟨S64x65536, .f32⟩
  | .local _ .vmem, ⟨1, _⟩ => ⟨S64x65536, .f32⟩
  | .local _ .vmem, ⟨2, _⟩ => ⟨S10x65536, .f32⟩
  | .local _ .vmem, ⟨3, _⟩ => ⟨S10x65536, .f32⟩
  | .local _ .vmem, ⟨4, _⟩ => ⟨S64x10, .f32⟩
  | .local _ .vmem, ⟨5, _⟩ => ⟨S64x10, .f32⟩
  | .local _ .vmem, ⟨6, _⟩ => ⟨S64x10, .f32⟩
  | _, _ => ⟨S128x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S128x1024x1024_S128x1048576 : S128x1024x1024.ShapeCasts S128x1048576
  transposes_S1048576x10_S10x1048576_1_0 : S1048576x10.Transposes [1, 0] S10x1048576
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S64x65536_S64x65536_0_0 : ∀ a, (![0, 0] : Fin 2 → Nat) a + S64x65536.size a ≤ S64x65536.size a
  h_S64x65536 : 0 < S64x65536.numel
  shapeCasts_S64x65536_S64x65536 : S64x65536.ShapeCasts S64x65536
  inb_S10x65536_S10x65536_0_0 : ∀ a, (![0, 0] : Fin 2 → Nat) a + S10x65536.size a ≤ S10x65536.size a
  h_S10x65536 : 0 < S10x65536.numel
  shapeCasts_S10x65536_S10x65536 : S10x65536.ShapeCasts S10x65536
  reduces_S64x10_S64 : S64x10.Reduces [1] S64
  shapeCasts_S64_S64x1 : S64.ShapeCasts S64x1
  broadcasts_S64x1_S64x10 : S64x1.Broadcasts S64x10
  dot_S64x65536_S10x65536_S64x10_1_1_0_0_n_n_wf : DotDims.WF S64x65536 S10x65536 S64x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x65536.size a ≤ S128x1048576.size a
  hwx0_0 : ∀ i : grid0.Coords, EltTy.bits .f32 = 32 ∨ (Rect.block (s := S128x1048576) S64x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10x65536.size a ≤ S10x1048576.size a
  hwx0_1 : ∀ i : grid0.Coords, EltTy.bits .f32 = 32 ∨ (Rect.block (s := S10x1048576) S10x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x10.size a ≤ S128x10.size a
  hwx0_2 : ∀ i : grid0.Coords, EltTy.bits .f32 = 32 ∨ (Rect.block (s := S128x10) S64x10.size (cc0_transform_2 i) (hinb0_2 i)).WholeWords (EltTy.packing .f32)

variable [Facts₀]

def dot_S64x65536_S10x65536_S64x10_1_1_0_0_n_n : DotDims S64x65536 S10x65536 S64x10 where
  lhsContracting := [1]
  rhsContracting := [1]
  lhsNonContracting := [0]
  rhsNonContracting := [0]
  lhsBatch := []
  rhsBatch := []
  wf := dot_S64x65536_S10x65536_S64x10_1_1_0_0_n_n_wf

abbrev win0_0 : Pipeline.Window sig grid0 :=
  Pipeline.Window.ofSpec (Memref.whole main_v0) S64x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S128x1024x1024 : Shape := ⟨3, ![128, 1024, 1024]⟩
abbrev S1048576x10 : Shape := ⟨2, ![1048576, 10]⟩
abbrev S128x1048576 : Shape := ⟨2, ![128, 1048576]⟩
abbrev S128x10 : Shape := ⟨2, ![128, 10]⟩
abbrev S_ : Shape := ⟨0, ![]⟩
abbrev S128 : Shape := ⟨1, ![128]⟩
abbrev S128x1 : Shape := ⟨2, ![128, 1]⟩

abbrev nBuf : Space → Nat
  | .hbm => 18
  | .vmem => 0
  | .smem => 0
  | _ => 0

abbrev bufTy : (tb : Table) → Fin (tcTables nBuf tb) → BufTy
  | .hbm, ⟨0, _⟩ => ⟨S128x1024x1024, .f32⟩
  | .hbm, ⟨1, _⟩ => ⟨S1048576x10, .f32⟩
  | .hbm, ⟨2, _⟩ => ⟨S128x1048576, .f32⟩
  | .hbm, ⟨3, _⟩ => ⟨S128x10, .f32⟩
  | .hbm, ⟨4, _⟩ => ⟨S_, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S128x1, .f32⟩
  | .hbm, ⟨10, _⟩ => ⟨S128x10, .f32⟩
  | .hbm, ⟨11, _⟩ => ⟨S128x10, .f32⟩
  | .hbm, ⟨12, _⟩ => ⟨S128x10, .f32⟩
  | .hbm, ⟨13, _⟩ => ⟨S_, .f32⟩
  | .hbm, ⟨14, _⟩ => ⟨S128, .f32⟩
  | .hbm, ⟨15, _⟩ => ⟨S128x1, .f32⟩
  | .hbm, ⟨16, _⟩ => ⟨S128x10, .f32⟩
  | .hbm, ⟨17, _⟩ => ⟨S128x10, .f32⟩
  | _, _ => ⟨S128x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S128x1024x1024_S128x1048576 : S128x1024x1024.ShapeCasts S128x1048576
  reducesTo_S128x10_S128_d1 : S128x10.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  dot_S128x1048576_S1048576x10_S128x10_1_0_0_1_n_n_wf : DotDims.WF S128x1048576 S1048576x10 S128x10 [1] [0] [0] [1] [] []

variable [Facts₀]

def dot_S128x1048576_S1048576x10_S128x10_1_0_0_1_n_n : DotDims S128x1048576 S1048576x10 S128x10 where
  lhsContracting := [1]
  rhsContracting := [0]
  lhsNonContracting := [0]
  rhsNonContracting := [1]
  lhsBatch := []
  rhsBatch := []
  wf := dot_S128x1048576_S1048576x10_S128x10_1_0_0_1_n_n_wf

class Facts : Prop extends Facts₀ where

variable [Facts]
-- ==== Proof.LibWholeStores.lean ====
/-
  Several stores through the whole block, then a load through it.

  A buffer's block that is stored whole several times holds what the LAST store put there, whatever the earlier stores
  were; so a load through the whole block, of a list of such stores (last first), reads the first entry's value. The
  library has this for a single store; here it is for any number of earlier ones — what an accumulator that is zeroed,
  read back, updated and read back again within one body needs.
-/
import Idealize.ShloMosaic.Lib.Pipeline.Value

noncomputable section

namespace Cert.Lib.WholeStores

open Idealize.ShloMosaic

/-- A load through the whole-shape rectangle at zero offsets of what the LAST store through it left reads that
    store's value, whatever was stored before. -/
theorem readCov_cons_unit_zero {Val : EltTy → Type} {S : Shape} {e : EltTy} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.Lib.WholeStores

end
-- ==== Proof.Pieces.lean ====
/-
  What the body leaves in the accumulator and in the output block, case by case, as the body's own pure terms.

  The body has three control cases. At a reduction run's first point it stores a zero block into the accumulator,
  reads it back, adds the point's partial product to it and stores the sum; at every later point it reads what the
  point before left, adds the point's partial product and stores the sum; at the run's last point it also reads the
  accumulator once more and stores its row-wise softmax into the output block. Each store covers its whole buffer,
  so what a buffer holds afterwards is the last store's value, and a load after a store reads that store's value.
-/
import proofs.«136202_j75625784148488_2_alg».proof.Proof.Gen.KernelIdeal.Frame
import proofs.«136202_j75625784148488_2_alg».proof.Proof.LibWholeStores
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A later point of a run that is not the last: the accumulator ends at the old contents plus the partial product. -/
theorem scratch_B (c : Dev nD) (i : grid0.Coords) (a2 : Memref sig .tc .vmem S64x65536 .f32) (h2 : a2.IsWhole)
    (a3 : Memref sig .tc .vmem S10x65536 .f32) (h3 : a3.IsWhole) (a4 : Memref sig .tc .vmem S64x10 .f32) (h4 : a4.IsWhole)
    (a5 : Memref sig .tc .vmem S64x10 .f32) (h5 : a5.IsWhole) (hc0 : ¬cond0_0 i) (hc1 : ¬cond0_1 i)
    (x0 : Vec F S64x65536 .f32) (x1 : Vec F S10x65536 .f32) (xs0 : Vec F S64x10 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S64x65536) hz,
    View.ld_unit_zero (S := S10x65536) hz, View.ld_unit_zero (S := S64x10) hz]

/-- The last point of a run: the accumulator ends as at any later point. -/
theorem scratch_C (c : Dev nD) (i : grid0.Coords) (a2 : Memref sig .tc .vmem S64x65536 .f32) (h2 : a2.IsWhole)
    (a3 : Memref sig .tc .vmem S10x65536 .f32) (h3 : a3.IsWhole) (a4 : Memref sig .tc .vmem S64x10 .f32) (h4 : a4.IsWhole)
    (a5 : Memref sig .tc .vmem S64x10 .f32) (h5 : a5.IsWhole) (hc0 : ¬cond0_0 i) (hc1 : cond0_1 i)
    (x0 : Vec F S64x65536 .f32) (x1 : Vec F S10x65536 .f32) (xs0 : Vec F S64x10 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero (S := S64x10) hz]
  simp only [View.readAt_eq_ld, h2.read_unread, h3.read_unread, h5.read_unread, View.ld_unit_zero (S := S64x65536) hz,
    View.ld_unit_zero (S := S10x65536) hz, View.ld_unit_zero (S := S64x10) hz]

/-- The last point of a run: the output block ends at the softmax term of the accumulator's final contents. -/
theorem out_C (c : Dev nD) (i : grid0.Coords) (a2 : Memref sig .tc .vmem S64x65536 .f32) (h2 : a2.IsWhole)
    (a3 : Memref sig .tc .vmem S10x65536 .f32) (h3 : a3.IsWhole) (a4 : Memref sig .tc .vmem S64x10 .f32) (h4 : a4.IsWhole)
    (a5 : Memref sig .tc .vmem S64x10 .f32) (h5 : a5.IsWhole) (hc0 : ¬cond0_0 i) (hc1 : cond0_1 i)
    (x0 : Vec F S64x65536 .f32) (x1 : Vec F S10x65536 .f32) (xs0 : Vec F S64x10 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero (S := S64x10) hz, View.readCov_unit_zero (S := S64x10) _ hz]
  simp only [View.readAt_eq_ld, h2.read_unread, h3.read_unread, h5.read_unread, View.ld_unit_zero (S := S64x65536) hz,
    View.ld_unit_zero (S := S10x65536) hz, View.ld_unit_zero (S := S64x10) hz]

/-- The first point of a run: the accumulator ends at the zero block plus the partial product. -/
theorem scratch_A (c : Dev nD) (i : grid0.Coords) (a2 : Memref sig .tc .vmem S64x65536 .f32) (h2 : a2.IsWhole)
    (a3 : Memref sig .tc .vmem S10x65536 .f32) (h3 : a3.IsWhole) (a4 : Memref sig .tc .vmem S64x10 .f32) (h4 : a4.IsWhole)
    (a5 : Memref sig .tc .vmem S64x10 .f32) (h5 : a5.IsWhole) (hc0 : cond0_0 i) (hc1 : ¬cond0_1 i)
    (x0 : Vec F S64x65536 .f32) (x1 : Vec F S10x65536 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S64x10) hz, View.readCov_unit_zero (S := S64x10) _ hz]
  simp only [View.readAt_eq_ld, h2.read_unread, h3.read_unread, View.ld_unit_zero (S := S64x65536) hz,
    View.ld_unit_zero (S := S10x65536) hz]

end Cert.KernelIdeal.Pieces

end
-- ==== Proof.LibBlockSum.lean ====
/-
  Dot products of matrix rows, cut into consecutive stretches of columns.

  For matrices X (A × K) and W (B × K) of extended reals the product X · Wᵀ has, at (a, b), the dot product of
  row a of X with row b of W. Summing the first n columns only gives a partial dot product; adding the next T
  columns to it gives the partial dot product over n + T columns. That is all a blocked matrix product does
  along its contraction axis, and it needs nothing but the associativity and commutativity of addition, which
  hold on the extended reals with the infinities included: no entry has to be finite.

  To speak of "row r, column k" for arbitrary naturals, a matrix is continued by zero outside its extents.
-/
import Idealize.ShloMosaic.Lib.ValueIdx
import Idealize.ShloMosaic.PureOps.Ideal

noncomputable section

open scoped BigOperators

namespace Cert.BlockSum

open Idealize.ShloMosaic Idealize.ShloMosaic.ValueIdx

/-- A matrix continued by zero outside its extents: it can be read at any pair of naturals. -/
def ext2 {A B : Nat} (X : (⟨2, ![A, B]⟩ : Shape).Idx → EReal) (r k : ℕ) : EReal :=
  if h : r < A ∧ k < B then X (ix2 ⟨r, h.1⟩ ⟨k, h.2⟩) else 0

/-- Inside the extents the continuation is the matrix. -/
theorem ext2_val {A B : Nat} (X : (⟨2, ![A, B]⟩ : Shape).Idx → EReal) (a : Fin A) (b : Fin B) :
    ext2 X a.val b.val = X (ix2 a b) := by
  unfold ext2
  rw [dif_pos ⟨a.isLt, b.isLt⟩]

/-- An entry, read by the values of its index's two coordinates. -/
theorem apply_eq_ext2 {A B : Nat} (X : (⟨2, ![A, B]⟩ : Shape).Idx → EReal) (i : (⟨2, ![A, B]⟩ : Shape).Idx)
    (r k : ℕ) (hr : (i 0).val = r) (hk : (i 1).val = k) : X i = ext2 X r k := by
  subst hr hk
  unfold ext2
  rw [dif_pos (⟨(i 0).isLt, (i 1).isLt⟩ : (i 0).val < A ∧ (i 1).val < B)]
  refine congrArg X (funext fun d => ?_)
  match d with
  | ⟨0, _⟩ => rfl
  | ⟨1, _⟩ => rfl

/-- An entry at an index known by its two coordinates. -/
theorem apply_of_eq_ix2 {A B : Nat} (X : (⟨2, ![A, B]⟩ : Shape).Idx → EReal) (i : (⟨2, ![A, B]⟩ : Shape).Idx)
    (r k : ℕ) (hr : r < A) (hk : k < B) (hi : i = ix2 ⟨r, hr⟩ ⟨k, hk⟩) : X i = ext2 X r k := by
  subst hi
  exact (ext2_val X ⟨r, hr⟩ ⟨k, hk⟩).symm

/-- Row r of X against row o of W over the first n columns. -/
def rowDot {A B K : Nat} (X : (⟨2, ![A, K]⟩ : Shape).Idx → EReal) (W : (⟨2, ![B, K]⟩ : Shape).Idx → EReal)
    (r o n : ℕ) : EReal :=
  ∑ k ∈ Finset.range n, ext2 X r k * ext2 W o k

/-- Over no column the partial dot product is zero. -/
theorem rowDot_zero {A B K : Nat} (X : (⟨2, ![A, K]⟩ : Shape).Idx → EReal) (W : (⟨2, ![B, K]⟩ : Shape).Idx → EReal)
    (r o : ℕ) : rowDot X W r o 0 = 0 := by
  unfold rowDot
  rw [Finset.range_zero, Finset.sum_empty]

/-- The next T columns added to the partial dot product over n columns give the one over n + T columns. -/
theorem rowDot_add {A B K : Nat} (X : (⟨2, ![A, K]⟩ : Shape).Idx → EReal) (W : (⟨2, ![B, K]⟩ : Shape).Idx → EReal)
    (r o n T : ℕ) :
    rowDot X W r o n + ∑ k : Fin T, ext2 X r (n + k.val) * ext2 W o (n + k.val) = rowDot X W r o (n + T) := by
  unfold rowDot
  rw [Finset.sum_range_add, Finset.sum_range (fun x => ext2 X r (n + x) * ext2 W o (n + x))]

/-- The product X · Wᵀ: at (a, b) the dot product of row a of X with row b of W. -/
def mulT {A B K : Nat} (X : (⟨2, ![A, K]⟩ : Shape).Idx → EReal) (W : (⟨2, ![B, K]⟩ : Shape).Idx → EReal) :
    (⟨2, ![A, B]⟩ : Shape).Idx → EReal :=
  fun j => ∑ k : Fin K, X (ix2 (j 0) k) * W (ix2 (j 1) k)

/-- Its entry is the partial dot product over all K columns. -/
theorem mulT_eq_rowDot {A B K : Nat} (X : (⟨2, ![A, K]⟩ : Shape).Idx → EReal) (W : (⟨2, ![B, K]⟩ : Shape).Idx → EReal)
    (j : (⟨2, ![A, B]⟩ : Shape).Idx) (r o : ℕ) (hr : (j 0).val = r) (ho : (j 1).val = o) :
    mulT X W j = rowDot X W r o K := by
  subst hr ho
  unfold mulT rowDot
  rw [Finset.sum_range (fun k => ext2 X (j 0).val k * ext2 W (j 1).val k)]
  exact Finset.sum_congr rfl fun k _ =>
    congrArg₂ (· * ·) (ext2_val X (j 0) k).symm (ext2_val W (j 1) k).symm

end Cert.BlockSum

end
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.LibMaxReduce.lean ====
/-
  Maxima at the extended reals, for any shapes.

  A float maximum-reduction over ONE axis started from -inf (the word 0xFF800000), read at a reduced index, is the
  supremum over that axis's coordinates of the operand at the index with the coordinate put back. It rests on two
  small facts: the word 0xFF800000 denotes -inf, the least extended real, and a fold of max started from the least
  element over a whole finite range is the supremum over the range.
-/
import Idealize.ShloMosaic.PureOps.Ideal.Laws
import Idealize.ShloMosaic.PureOps.Reduce

noncomputable section

open scoped BigOperators

namespace Cert.Lib.MaxReduce

open Idealize.ShloMosaic

/-- The f32 word 0xFF800000 denotes -inf. -/
theorem ofBits_neg_inf_f32 : Ideal.ofBits .f32 0xFF800000#32 = (⊥ : EReal) := by
  simp [Ideal.ofBits, Ideal.ieee]

/-- A fold of max started from -inf over all of a finite index range is the supremum over the range. -/
theorem fold_max_bot_eq_iSup {K : Nat} (f : Fin K → EReal) :
    (Finset.univ : Finset (Fin K)).fold max (⊥ : EReal) f = ⨆ k, f k := by
  rw [← Finset.sup_univ_eq_iSup]
  rfl

/-- The host's one-operand reduce with a maximum body over one axis, its initial value the -inf constant, at reduced
    index j: the supremum over that axis's coordinates k of the operand at j with k put back (`h'` is the host's
    shape fact, `h` the lane form of the same fact, which names the index with the coordinate put back). -/
theorem hostMaxReduce_single {s t u : Shape} {a : Fin s.rank} (x : FVec Ideal s .f32) (h' : s.ReducesTo [a] t)
    (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (fun k => x (h.lift j k)) = _
  rw [ofBits_neg_inf_f32]
  exact fold_max_bot_eq_iSup _

end Cert.Lib.MaxReduce

end
-- ==== Proof.LibMaxLane.lean ====
/-
  A lane maximum at the extended reals, for any shapes.

  A kernel's float maximum-reduction over ONE axis started from -inf (the word 0xFF800000), read at a reduced index,
  is the supremum over that axis's coordinates of the operand at the index with the coordinate put back: the mirror,
  for the lane reduction, of the host's maximum and of the lane minimum. It rests on the same two facts: the word
  0xFF800000 denotes -inf, and a fold of max started from the least element over a whole finite range is the supremum.
-/
import Idealize.ShloMosaic.PureOps.Ideal.Laws
import Idealize.ShloMosaic.PureOps.Reduce
import proofs.«136202_j75625784148488_2_alg».proof.Proof.LibMaxReduce

noncomputable section

open scoped BigOperators

namespace Cert.Lib.MaxLane

open Idealize.ShloMosaic

/-- A kernel's lane maximum over one axis started from -inf, at reduced index j: the supremum over that axis's
    coordinates k of the operand at j with k put back (`h.lift j k`). The accumulator's proof is taken as the
    printed program spells it. -/
theorem maxReduce_single {s t : Shape} {a : Fin s.rank} (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = ⨆ k : Fin (s.size a), src (h.lift j k) := by
  refine (Ideal.multiReduction_maximumf_single src 0xFF800000#32 h hφ hacc j).trans ?_
  show (Finset.univ : Finset (Fin (s.size a))).fold max (Ideal.ofBits .f32 0xFF800000#32) (fun k => src (h.lift j k)) = _
  rw [Cert.Lib.MaxReduce.ofBits_neg_inf_f32]
  exact Cert.Lib.MaxReduce.fold_max_bot_eq_iSup _

end Cert.Lib.MaxLane

end
-- ==== Proof.LibRowOps.lean ====
/-
  A kernel body's operations on one block of rows, read at an entry, at the extended reals.

  Each lemma reads one spelling at one entry (p, q) of its result: a lane sum or a lane maximum (from -inf) kept
  as a column, a [1, b] row repeated over a block of rows, and the sums of a matrix's rows laid out as a [1, n] row — for any
  extents. (A column repeated along the columns is read by the keepdims-column lemmas this file imports.)
-/
import Idealize.ShloMosaic.PureOps.Ideal.Laws
import Idealize.ShloMosaic.Lib.ValueIdx
import Idealize.ShloMosaic.Lib.Pipeline.Value
import proofs.«136202_j75625784148488_2_alg».proof.Proof.LibKeepdimsColumn
import proofs.«136202_j75625784148488_2_alg».proof.Proof.LibMaxLane

noncomputable section

open scoped BigOperators

namespace Cert.Dual.Body

open Idealize.ShloMosaic Idealize.ShloMosaic.ValueIdx

/-- The index of an [a, b] array over the reduced index p of its rows with column k put back is (p, k). -/
theorem lift_cols {a b : Nat} (h : Shape.Reduces ⟨2, ![a, b]⟩ [1] ⟨1, ![a]⟩) (p : Fin a) (k : Fin b) :
    h.lift (ix1 p) k = ix2 p k := funext fun d => Fin.ext (by
  match d with
  | ⟨0, _⟩ => rfl
  | ⟨1, _⟩ => rfl)

/-- A lane sum of an [a, b] block kept as an [a, 1] column, at row p: the sum of row p. -/
theorem rowSum_at {a b : Nat} (v : FVec Ideal ⟨2, ![a, b]⟩ .f32)
    (hr : Shape.Reduces ⟨2, ![a, b]⟩ [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (p : Fin a) :
    shapeCast ⟨2, ![a, 1]⟩ (multiReduction .add [1] ⟨1, ![a]⟩ v 0x00000000#32 hr hφ hacc) hc
        (ix2 (n0 := a) (n1 := 1) p ⟨0, Nat.one_pos⟩)
      = ∑ k : Fin b, v (ix2 p k) := by
  rw [Cert.Lib.KeepdimsColumn.column_cast_at _ hc p, Ideal.multiReduction_add_single v _ hr hφ hacc (ix1 p)]
  exact Finset.sum_congr rfl fun k _ => by rw [lift_cols hr p k]

/-- A lane maximum from -inf of an [a, b] block kept as an [a, 1] column, at row p: the supremum of row p. -/
theorem rowMax_at {a b : Nat} (v : FVec Ideal ⟨2, ![a, b]⟩ .f32)
    (hr : Shape.Reduces ⟨2, ![a, b]⟩ [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (p : Fin a) :
    shapeCast ⟨2, ![a, 1]⟩ (multiReduction .maximumf [1] ⟨1, ![a]⟩ v 0xFF800000#32 hr hφ hacc) hc
        (ix2 (n0 := a) (n1 := 1) p ⟨0, Nat.one_pos⟩)
      = ⨆ k : Fin b, v (ix2 p k) := by
  rw [Cert.Lib.KeepdimsColumn.column_cast_at _ hc p, Cert.Lib.MaxLane.maxReduce_single v hr hφ hacc (ix1 p)]
  exact iSup_congr fun k => by rw [lift_cols hr p k]

/-- A [1, b] row repeated over a block of a rows, at (p, q): the row's entry q. -/
theorem rowBcast_at {α : Type} {a b : Nat} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (n0 := 1) (n1 := b) ⟨0, Nat.one_pos⟩ q) :=
  broadcastTo_apply v h (ix2 p q) _ (fun d => by
    match d with
    | ⟨0, _⟩ => exact (if_pos rfl).symm
    | ⟨1, _⟩ =>
      show q.val = if b = 1 then 0 else q.val
      split
      · have := q.isLt; omega
      · rfl)

/-- The sums of the rows of an [n, b] matrix laid out as a [1, n] row, at entry h: the sum of row h. -/
theorem rowSums_row_at {n b : Nat} (w : FVec Ideal ⟨2, ![n, b]⟩ .f32)
    (hr : Shape.Reduces ⟨2, ![n, b]⟩ [1] ⟨1, ![n]⟩) (hφ : FKind.Formats .f32)
    (hacc : (0x00000000#32 : BitVec FTy.f32.bits) = FKind.add.neutral .f32 hφ)
    (hc : (⟨1, ![n]⟩ : Shape).ShapeCasts ⟨2, ![1, n]⟩) (h : Fin n) :
    shapeCast ⟨2, ![1, n]⟩ (multiReduction .add [1] ⟨1, ![n]⟩ w 0x00000000#32 hr hφ hacc) hc
        (ix2 (n0 := 1) (n1 := n) ⟨0, Nat.one_pos⟩ h)
      = ∑ d : Fin b, w (ix2 h d) := by
  rw [shapeCast_addUnit_apply ![n] _ hc _]
  have e : (fun a : Fin 1 => (ix2 (n0 := 1) (n1 := n) ⟨0, Nat.one_pos⟩ h) a.succ) = ix1 h :=
    funext fun a => by match a with | ⟨0, _⟩ => rfl
  rw [e, Ideal.multiReduction_add_single w _ hr hφ hacc (ix1 h)]
  exact Finset.sum_congr rfl fun k _ => by rw [lift_cols hr h k]

end Cert.Dual.Body

end
-- ==== Proof.LibSoftmaxRow.lean ====
/-
  The softmax of a row of extended reals, and a kernel body's spelling of it on a block of rows.

  For a row y of N extended reals, softmaxRow y n = exp(y n − sup y) / Σ_k exp(y k − sup y): the supremum over the row,
  the extended reals' total exponential (exp(−∞) = 0, exp(+∞) = +∞) and total division. No entry has to be finite.

  A kernel body computes it on an [a, b] block v as: the lane maximum from -inf kept as an [a, 1] column and broadcast
  back along the columns, subtracted; the exponential; the lane sum from zero kept as a column and broadcast back;
  the quotient. Read at entry (p, q) that is softmaxRow of row p of v at q, for any extents a and b.
-/
import Idealize.ShloMosaic.PureOps.Ideal.Laws
import Idealize.ShloMosaic.Lib.ValueIdx
import Idealize.ShloMosaic.Lib.Pipeline.Value
import proofs.«136202_j75625784148488_2_alg».proof.Proof.LibRowOps

noncomputable section

open scoped BigOperators

namespace Cert.Lib.SoftmaxRow

open Idealize.ShloMosaic Idealize.ShloMosaic.ValueIdx

/-- The softmax of one row of extended reals, at entry n. -/
def softmaxRow {N : Nat} (y : Fin N → EReal) (n : Fin N) : EReal :=
  Ideal.div (Ideal.exp (y n - ⨆ k, y k)) (∑ k' : Fin N, Ideal.exp (y k' - ⨆ k, y k))

/-- Two rows that agree entry by entry have the same softmax. -/
theorem softmaxRow_congr {N : Nat} {y z : Fin N → EReal} (h : ∀ n, y n = z n) (n : Fin N) :
    softmaxRow y n = softmaxRow z n := by
  rw [show y = z from funext h]

/-- … and so at two names of one entry. -/
theorem softmaxRow_congr2 {N : Nat} {y z : Fin N → EReal} {n n' : Fin N} (h : ∀ k, y k = z k) (hn : n = n') :
    softmaxRow y n = softmaxRow z n' := by
  subst hn
  exact softmaxRow_congr h n

/-- A body's row-wise softmax of an [a, b] block (lane maximum from -inf and lane sum from zero, each kept as a column
    and broadcast back along the columns), at entry (p, q): the softmax of row p at q. The shape facts and the two
    accumulator facts are taken as the printed program spells them. -/
theorem blockSoftmax_at {a b : Nat} (v : FVec Ideal ⟨2, ![a, b]⟩ .f32)
    (hr : Shape.Reduces ⟨2, ![a, b]⟩ [1] ⟨1, ![a]⟩) (hφ : FKind.Formats .f32)
    (hmax : (0xFF800000#32 : BitVec 32) = FKind.maximumf.neutral .f32 hφ)
    (hadd : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    divf
        (exp (subf v (broadcastTo ⟨2, ![a, b]⟩ (shapeCast ⟨2, ![a, 1]⟩
          (multiReduction (F := Ideal) .maximumf [1] ⟨1, ![a]⟩ v 0xFF800000#32 hr hφ hmax) hc) hb)))
        (broadcastTo ⟨2, ![a, b]⟩ (shapeCast ⟨2, ![a, 1]⟩
          (multiReduction (F := Ideal) .add [1] ⟨1, ![a]⟩
            (exp (subf v (broadcastTo ⟨2, ![a, b]⟩ (shapeCast ⟨2, ![a, 1]⟩
              (multiReduction (F := Ideal) .maximumf [1] ⟨1, ![a]⟩ v 0xFF800000#32 hr hφ hmax) hc) hb)))
            0x00000000#32 hr hφ hadd) hc) hb)
        (ix2 p q)
      = softmaxRow (fun n => v (ix2 p n)) q := by
  -- the row maximum, carried back to the block's shape, at any entry of row p'
  have hm : ∀ (p' : Fin a) (q' : Fin b),
      broadcastTo ⟨2, ![a, b]⟩ (shapeCast ⟨2, ![a, 1]⟩
        (multiReduction (F := Ideal) .maximumf [1] ⟨1, ![a]⟩ v 0xFF800000#32 hr hφ hmax) hc) hb (ix2 p' q')
        = ⨆ k : Fin b, v (ix2 p' k) :=
    fun p' q' => (Cert.Lib.KeepdimsColumn.column_broadcast_at _ hb p' q').trans
      (Cert.Dual.Body.rowMax_at v hr hφ hmax hc p')
  -- the exponentials of the shifted row, entry by entry
  have he : ∀ (p' : Fin a) (q' : Fin b),
      exp (subf v (broadcastTo ⟨2, ![a, b]⟩ (shapeCast ⟨2, ![a, 1]⟩
        (multiReduction (F := Ideal) .maximumf [1] ⟨1, ![a]⟩ v 0xFF800000#32 hr hφ hmax) hc) hb)) (ix2 p' q')
        = Ideal.exp (v (ix2 p' q') - ⨆ k : Fin b, v (ix2 p' k)) :=
    fun p' q' => congrArg (fun z => Ideal.exp (v (ix2 p' q') - z)) (hm p' q')
  -- the row sum of the exponentials, carried back likewise
  have hs : broadcastTo ⟨2, ![a, b]⟩ (shapeCast ⟨2, ![a, 1]⟩
        (multiReduction (F := Ideal) .add [1] ⟨1, ![a]⟩
          (exp (subf v (broadcastTo ⟨2, ![a, b]⟩ (shapeCast ⟨2, ![a, 1]⟩
            (multiReduction (F := Ideal) .maximumf [1] ⟨1, ![a]⟩ v 0xFF800000#32 hr hφ hmax) hc) hb)))
          0x00000000#32 hr hφ hadd) hc) hb (ix2 p q)
        = ∑ k' : Fin b, Ideal.exp (v (ix2 p k') - ⨆ k : Fin b, v (ix2 p k)) :=
    ((Cert.Lib.KeepdimsColumn.column_broadcast_at _ hb p q).trans
      (Cert.Dual.Body.rowSum_at _ hr hφ hadd hc p)).trans (Finset.sum_congr rfl fun k' _ => he p k')
  unfold softmaxRow
  exact congrArg₂ Ideal.div (he p q) hs

end Cert.Lib.SoftmaxRow

end
-- ==== Proof.Spec.lean ====
/-
  The function both programs compute, over the extended reals.

  From a matrix X (A rows of K numbers) and a matrix W (B rows of K numbers) form the A × B matrix of dot products of
  a row of X with a row of W, and replace each of its rows y by its softmax: entry n becomes
  exp(y n − max y) / Σ_k exp(y k − max y), the maximum taken as a supremum over the row, the quotient the
  extended reals' total division. Nothing here asks an entry to be finite.
-/
import Idealize.ShloMosaic.Lib.ValueIdx
import Idealize.ShloMosaic.PureOps.Ideal
import proofs.«136202_j75625784148488_2_alg».proof.Proof.LibBlockSum
import proofs.«136202_j75625784148488_2_alg».proof.Proof.LibSoftmaxRow

noncomputable section

open scoped BigOperators

namespace Cert.PoolSoftmax

open Idealize.ShloMosaic Idealize.ShloMosaic.ValueIdx

export Cert.Lib.SoftmaxRow (softmaxRow softmaxRow_congr softmaxRow_congr2)

/-- The row-wise softmax of X · Wᵀ. -/
def pooled {A B K : Nat} (X : (⟨2, ![A, K]⟩ : Shape).Idx → EReal) (W : (⟨2, ![B, K]⟩ : Shape).Idx → EReal) :
    (⟨2, ![A, B]⟩ : Shape).Idx → EReal :=
  fun j => softmaxRow (fun n => Cert.BlockSum.mulT X W (ix2 (j 0) n)) (j 1)

end Cert.PoolSoftmax

end
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.LibDotFreeAxis.lean ====
/-
  The free (non-contracted, non-batch) axes of a matrix product's operand indices.

  A product's dimension numbers say, for every axis of each operand, where its coordinate comes from: a free axis of
  the left operand reads the output index at the axis's place among the left free axes (after the batch axes), a free
  axis of the right operand reads it after all of the left operand's. With no batch axes and one free axis on each
  side, the left operand's free coordinate is the output's coordinate 0 and the right operand's is the output's
  coordinate 1, whatever the contraction position is. These are the companions, for the free axes, of the
  library's statements about the single contracted axis.
-/
import Idealize.ShloMosaic.PureOps.Dims

namespace Cert.Lib.DotFreeAxis

open Idealize.ShloMosaic

variable {sl sr so : Shape} (d : DotDims sl sr so)

/-- No batch axes, one left free axis a: the left operand's coordinate on a is the output's coordinate 0. -/
theorem lhsIdx_val_of_free {a : Fin sl.rank} (hb : d.lhsBatch = []) (hn : d.lhsNonContracting = [a])
    (h0 : 0 < so.rank) (j : so.Idx) (k : d.contr.Idx) :
    (d.lhsIdx j k a).val = (j ⟨0, h0⟩).val := by
  have h1 : a ∉ d.lhsBatch := by rw [hb]; exact List.not_mem_nil
  have h2 : a ∈ d.lhsNonContracting := by rw [hn]; exact List.mem_singleton.mpr rfl
  unfold DotDims.lhsIdx
  rw [dif_neg h1, dif_pos h2]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- No batch axes, one free axis on each side: the right operand's coordinate on its free axis a is the output's
    coordinate 1. -/
theorem rhsIdx_val_of_free {a : Fin sr.rank} {a' : Fin sl.rank} (hb : d.lhsBatch = []) (hb' : d.rhsBatch = [])
    (hn' : d.lhsNonContracting = [a']) (hn : d.rhsNonContracting = [a])
    (h1 : 1 < so.rank) (j : so.Idx) (k : d.contr.Idx) :
    (d.rhsIdx j k a).val = (j ⟨1, h1⟩).val := by
  have h2 : a ∉ d.rhsBatch := by rw [hb']; exact List.not_mem_nil
  have h3 : a ∈ d.rhsNonContracting := by rw [hn]; exact List.mem_singleton.mpr rfl
  unfold DotDims.rhsIdx
  rw [dif_neg h2, dif_pos h3]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn', hn])

end Cert.Lib.DotFreeAxis
-- ==== Proof.Body.lean ====
/-
  The body's three pure terms read at one entry, over the extended reals.

  The reset stores zeros. The accumulating store holds, at (p, q), the old accumulator entry plus the dot product of
  row p of the X block with row q of the W block: the matrix unit contracts the second axis of both operands, into a
  zero accumulator, and the zero adds nothing. The epilogue's store holds, at (p, q), the softmax of row p of the
  accumulator at entry q: the row maximum (a lane maximum from -inf) and the row sum (a lane sum from zero) are
  carried back to the block's shape through a column.
-/
import proofs.«136202_j75625784148488_2_alg».proof.Proof.Gen.KernelIdeal.Skeleton
import proofs.«136202_j75625784148488_2_alg».proof.Proof.Spec
import proofs.«136202_j75625784148488_2_alg».proof.Proof.LibOneAxisDot
import proofs.«136202_j75625784148488_2_alg».proof.Proof.LibDotFreeAxis
import proofs.«136202_j75625784148488_2_alg».proof.Proof.LibRowOps
import Idealize.ShloMosaic.Lib.Pipeline.Value
import Idealize.ShloMosaic.Lib.ValueIdx
import Idealize.ShloMosaic.PureOps.Ideal.Laws

noncomputable section

open scoped BigOperators

namespace Cert.KernelIdeal.Body

open Idealize.ShloMosaic Idealize.ShloMosaic.ValueIdx
open Cert.KernelIdeal Cert.KernelIdeal.Gen

/-- The reset's block is zero everywhere. -/
theorem pay1_apply (j : S64x10.Idx) : k0_pay1 (F := Ideal) j = 0 := by
  unfold k0_pay1
  rw [shapeCast_self]
  exact Ideal.ofBits_zero_f32

/-- The operand indices of the block product at output (p, q) and contraction position k: (p, k) on the left. -/
theorem lhs_at (p : Fin 64) (q : Fin 10) (k : Fin 65536) :
    dot_S64x65536_S10x65536_S64x10_1_1_0_0_n_n.lhsIdx (ix2 p q)
        ((contrEquiv1 dot_S64x65536_S10x65536_S64x10_1_1_0_0_n_n 65536 rfl rfl).symm k) = ix2 p k :=
  funext fun a => Fin.ext (by
    match a with
    | ⟨0, _⟩ =>
      exact Cert.Lib.DotFreeAxis.lhsIdx_val_of_free dot_S64x65536_S10x65536_S64x10_1_1_0_0_n_n (a := 0) rfl rfl
        (by decide) (ix2 p q) _
    | ⟨1, _⟩ =>
      exact (dot_S64x65536_S10x65536_S64x10_1_1_0_0_n_n.lhsIdx_val_of_single (cl := 1) rfl (ix2 p q) _).trans
        (contrEquiv1_symm_val dot_S64x65536_S10x65536_S64x10_1_1_0_0_n_n 65536 rfl rfl k))

/-- … and (q, k) on the right. -/
theorem rhs_at (p : Fin 64) (q : Fin 10) (k : Fin 65536) :
    dot_S64x65536_S10x65536_S64x10_1_1_0_0_n_n.rhsIdx (ix2 p q)
        ((contrEquiv1 dot_S64x65536_S10x65536_S64x10_1_1_0_0_n_n 65536 rfl rfl).symm k) = ix2 q k :=
  funext fun a => Fin.ext (by
    match a with
    | ⟨0, _⟩ =>
      exact Cert.Lib.DotFreeAxis.rhsIdx_val_of_free dot_S64x65536_S10x65536_S64x10_1_1_0_0_n_n (a := 0) (a' := 0)
        rfl rfl rfl rfl (by decide) (ix2 p q) _
    | ⟨1, _⟩ =>
      exact (dot_S64x65536_S10x65536_S64x10_1_1_0_0_n_n.rhsIdx_val_of_single (cr := 1) rfl (ix2 p q) _).trans
        (contrEquiv1_symm_val dot_S64x65536_S10x65536_S64x10_1_1_0_0_n_n 65536 rfl rfl k))

/-- The accumulating store at (p, q): the old entry plus the dot product of row p of the X block and row q of the W block. -/
theorem pay2_apply (x0 : FVec Ideal S64x65536 .f32) (x1 : FVec Ideal S10x65536 .f32) (acc : FVec Ideal S64x10 .f32)
    (p : Fin 64) (q : Fin 10) :
    k0_pay2 (F := Ideal) x0 x1 acc (ix2 p q) = acc (ix2 p q) + ∑ k : Fin 65536, x0 (ix2 p k) * x1 (ix2 q k) := by
  unfold k0_pay2
  rw [shapeCast_self, shapeCast_self, shapeCast_self]
  refine congrArg (acc (ix2 p q) + ·) ?_
  exact Cert.Lib.OneAxisDot.matmul_zero_apply_at dot_S64x65536_S10x65536_S64x10_1_1_0_0_n_n 65536 rfl rfl (some .fp32)
    x0 x1 (ix2 p q) (fun k => ix2 p k) (fun k => ix2 q k) (lhs_at p q) (rhs_at p q)

/-- The epilogue's store at (p, q): the softmax of row p of its operand, at entry q. -/
theorem pay3_apply (v : FVec Ideal S64x10 .f32) (p : Fin 64) (q : Fin 10) :
    k0_pay3 (F := Ideal) v (ix2 p q) = Cert.PoolSoftmax.softmaxRow (fun n => v (ix2 p n)) q := by
  unfold k0_pay3
  exact Cert.Lib.SoftmaxRow.blockSoftmax_at v reduces_S64x10_S64 (.inl rfl) rfl rfl shapeCasts_S64_S64x1
    broadcasts_S64x1_S64x10 p q

/-- The same at an index given whole. -/
theorem pay3_at (v : FVec Ideal S64x10 .f32) (y : S64x10.Idx) :
    k0_pay3 (F := Ideal) v y = Cert.PoolSoftmax.softmaxRow (fun n => v (ix2 (y 0) n)) (y 1) := by
  obtain ⟨p, q, rfl⟩ : ∃ (p : Fin 64) (q : Fin 10), y = ix2 p q := ⟨y 0, y 1, eq_ix2 y⟩
  exact pay3_apply v p q

end Cert.KernelIdeal.Body

end
-- ==== Proof.Blocks.lean ====
/-
  The two input blocks of a grid point, read at an entry, and the two arrays the region finds.

  The grid has 32 points: point t belongs to row tile t / 16 (64 rows of X each) and to reduction step t % 16 (65536
  columns each). Its X block is rows 64·(t/16) … of X and columns 65536·(t%16) … ; its W block is all ten rows of W and
  the same columns. The arrays X and W are what the host operations before the region wrote: X is the [128, 1024, 1024]
  argument re-laid as [128, 1048576] (same row-major order), W is the [1048576, 10] argument transposed.
-/
import proofs.«136202_j75625784148488_2_alg».proof.Proof.Gen.KernelIdeal.Frame
import proofs.«136202_j75625784148488_2_alg».proof.Proof.LibBlockSum
import Idealize.ShloMosaic.Lib.Pipeline.Value
import Idealize.ShloMosaic.Lib.StableHlo.Run
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The [128, 1048576] array the region finds as its first operand. -/
def X (c : Dev nD) : (⟨2, ![128, 1048576]⟩ : Shape).Idx → EReal := V m c main_v0
/-- The [10, 1048576] array the region finds as its second operand. -/
def W (c : Dev nD) : (⟨2, ![10, 1048576]⟩ : Shape).Idx → EReal := V m c main_v1

/-- The printed index maps over the grid: the row tile is t / 16, the reduction step t % 16. -/
theorem idx_facts : ∀ t : Fin cfg0.N,
    win0_0.index t (0 : Fin 2) = t.val / 16 ∧ win0_0.index t (1 : Fin 2) = t.val % 16
    ∧ win0_1.index t (0 : Fin 2) = 0 ∧ win0_1.index t (1 : Fin 2) = t.val % 16
    ∧ win0_2.index t (0 : Fin 2) = t.val / 16 ∧ win0_2.index t (1 : Fin 2) = 0 :=
  (by decide +kernel : ∀ t : Fin grid0.N, _)

/-- The X block of point t at (p, k). -/
theorem xblk_apply (c : Dev nD) (t : Fin cfg0.N) (p : Fin 64) (k : Fin 65536) :
    (iblk m c 0 t : FVec Ideal S64x65536 .f32) (ix2 p k)
      = Cert.BlockSum.ext2 (X m c) (64 * (t.val / 16) + p.val) (65536 * (t.val % 16) + k.val) := by
  obtain ⟨e0, e1, -⟩ := idx_facts t
  unfold iblk
  rw [View.read_apply]
  refine Cert.BlockSum.apply_eq_ext2 (X m c) _ _ _ ?_ ?_
  · show win0_0.index t (0 : Fin 2) * 64 + 1 * p.val = _
    rw [e0]; omega
  · show win0_0.index t (1 : Fin 2) * 65536 + 1 * k.val = _
    rw [e1]; omega

/-- The W block of point t at (q, k). -/
theorem wblk_apply (c : Dev nD) (t : Fin cfg0.N) (q : Fin 10) (k : Fin 65536) :
    (iblk m c 1 t : FVec Ideal S10x65536 .f32) (ix2 q k)
      = Cert.BlockSum.ext2 (W m c) q.val (65536 * (t.val % 16) + k.val) := by
  obtain ⟨-, -, e0, e1, -⟩ := idx_facts t
  unfold iblk
  rw [View.read_apply]
  refine Cert.BlockSum.apply_eq_ext2 (W m c) _ _ _ ?_ ?_
  · show win0_1.index t (0 : Fin 2) * 10 + 1 * q.val = _
    rw [e0]; omega
  · show win0_1.index t (1 : Fin 2) * 65536 + 1 * k.val = _
    rw [e1]; omega

end Cert.KernelIdeal.Blocks

end
-- ==== Proof.Accum.lean ====
/-
  What the accumulator holds after each grid point: a partial dot product.

  Point t belongs to row tile t / 16 and reduction step t % 16. After it the accumulator's entry (p, q) is the dot
  product of row 64·(t/16) + p of X with row q of W over the first 65536·(t%16 + 1) columns. At a run's first point
  the zero block plus the first 65536 columns; at every later point the previous partial dot product plus the next
  65536 columns. Only the associativity of addition is used, so no entry has to be finite. After a run's last point
  all 1048576 columns are in, and the output block is the row-wise softmax of the accumulator.
-/
import proofs.«136202_j75625784148488_2_alg».proof.Proof.Pieces
import proofs.«136202_j75625784148488_2_alg».proof.Proof.Body
import proofs.«136202_j75625784148488_2_alg».proof.Proof.Blocks

noncomputable section

open scoped BigOperators

namespace Cert.KernelIdeal.Accum

open Idealize.ShloMosaic Idealize.ShloMosaic.TcCoe Idealize.SL.Sem Idealize.ShloMosaic.ValueIdx
open Cert.KernelIdeal Cert.KernelIdeal.Gen Cert.KernelIdeal.Blocks Cert.BlockSum

variable (m : (ℓ : Loc nD τ sig) → Buf (Elt Ideal) ℓ)

/-- One accumulating store: if the X block's row p and the W block's row q are the columns n … n + 65535 of row r of
    X and row q of W, and the old entry is the partial dot product over n columns, the new entry is the one over
    n + 65536 columns. -/
theorem step (x0 : FVec Ideal S64x65536 .f32) (x1 : FVec Ideal S10x65536 .f32) (acc : FVec Ideal S64x10 .f32)
    (Xa : (⟨2, ![128, 1048576]⟩ : Shape).Idx → EReal) (Wa : (⟨2, ![10, 1048576]⟩ : Shape).Idx → EReal)
    (r n : ℕ) (p : Fin 64) (q : Fin 10)
    (hx0 : ∀ k : Fin 65536, x0 (ix2 p k) = ext2 Xa r (n + k.val))
    (hx1 : ∀ k : Fin 65536, x1 (ix2 q k) = ext2 Wa q.val (n + k.val))
    (hacc : acc (ix2 p q) = rowDot Xa Wa r q.val n) :
    k0_pay2 (F := Ideal) x0 x1 acc (ix2 p q) = rowDot Xa Wa r q.val (n + 65536) := by
  rw [Cert.KernelIdeal.Body.pay2_apply, hacc, ← rowDot_add Xa Wa r q.val n 65536]
  exact congrArg (_ + ·) (Finset.sum_congr rfl fun k _ => by rw [hx0 k, hx1 k])

/-- A run's first point. -/
theorem first_point (c : Dev nD) (t : Fin cfg0.N) (h0 : t.val % 16 = 0) (p : Fin 64) (q : Fin 10) :
    (outsAt0 m c t.val t.isLt).2 (ix2 p q)
      = rowDot (X m c) (W m c) (64 * (t.val / 16) + p.val) q.val (65536 * (t.val % 16) + 65536) := by
  have h1 : ¬t.val % 16 = 15 := by omega
  rw [outsAt0_A m c t h0 h1]
  dsimp only
  refine (congrFun (Cert.KernelIdeal.Pieces.scratch_A (F := Ideal) c (grid0.coords t) (ms0_0 t) (hs0_0 t) (ms0_1 t)
    (hs0_1 t) (ms0_2 t) (hs0_2 t) scM0_0 (Memref.isWhole_whole _) ((hcond0_0 t).mpr h0)
    (fun h => h1 ((hcond0_1 t).mp h)) (iblk m c 0 t) (iblk m c 1 t)) (ix2 p q)).trans ?_
  refine step (iblk m c 0 t) (iblk m c 1 t) (k0_pay1 (F := Ideal)) (X m c) (W m c) (64 * (t.val / 16) + p.val)
    (65536 * (t.val % 16)) p q (fun k => xblk_apply m c t p k) (fun k => wblk_apply m c t q k) ?_
  rw [Cert.KernelIdeal.Body.pay1_apply, h0]
  exact (rowDot_zero (X m c) (W m c) _ _).symm

/-- A later point of a run, over what the point before left. -/
theorem later_point (c : Dev nD) (t : Fin cfg0.N) (h0 : ¬t.val % 16 = 0) (p : Fin 64) (q : Fin 10) (r n : ℕ)
    (hr : r = 64 * (t.val / 16) + p.val) (hn : n = 65536 * (t.val % 16))
    (prev : (outsAt0 m c (t.val - 1) (Nat.lt_of_le_of_lt (Nat.sub_le _ _) t.isLt)).2 (ix2 p q)
      = rowDot (X m c) (W m c) r q.val n) :
    (outsAt0 m c t.val t.isLt).2 (ix2 p q) = rowDot (X m c) (W m c) r q.val (n + 65536) := by
  subst hr hn
  by_cases h1 : t.val % 16 = 15
  · rw [outsAt0_C m c t h0 h1]
    dsimp only
    refine (congrFun (Cert.KernelIdeal.Pieces.scratch_C (F := Ideal) c (grid0.coords t) (ms0_0 t) (hs0_0 t) (ms0_1 t)
      (hs0_1 t) (ms0_2 t) (hs0_2 t) scM0_0 (Memref.isWhole_whole _) (fun h => h0 ((hcond0_0 t).mp h))
      ((hcond0_1 t).mpr h1) (iblk m c 0 t) (iblk m c 1 t)
      (outsAt0 m c (t.val - 1) (Nat.lt_of_le_of_lt (Nat.sub_le _ _) t.isLt)).2) (ix2 p q)).trans ?_
    exact step (iblk m c 0 t) (iblk m c 1 t) _ (X m c) (W m c) _ _ p q (fun k => xblk_apply m c t p k)
      (fun k => wblk_apply m c t q k) prev
  · rw [outsAt0_B m c t h0 h1]
    dsimp only
    refine (congrFun (Cert.KernelIdeal.Pieces.scratch_B (F := Ideal) c (grid0.coords t) (ms0_0 t) (hs0_0 t) (ms0_1 t)
      (hs0_1 t) (ms0_2 t) (hs0_2 t) scM0_0 (Memref.isWhole_whole _) (fun h => h0 ((hcond0_0 t).mp h))
      (fun h => h1 ((hcond0_1 t).mp h)) (iblk m c 0 t) (iblk m c 1 t)
      (outsAt0 m c (t.val - 1) (Nat.lt_of_le_of_lt (Nat.sub_le _ _) t.isLt)).2) (ix2 p q)).trans ?_
    exact step (iblk m c 0 t) (iblk m c 1 t) _ (X m c) (W m c) _ _ p q (fun k => xblk_apply m c t p k)
      (fun k => wblk_apply m c t q k) prev

/-- After point n the accumulator's entry (p, q) is the partial dot product over 65536·(n % 16 + 1) columns. -/
theorem acc_inv (c : Dev nD) : ∀ (n : ℕ) (hn : n < cfg0.N) (p : Fin 64) (q : Fin 10),
    (outsAt0 m c n hn).2 (ix2 p q)
      = rowDot (X m c) (W m c) (64 * (n / 16) + p.val) q.val (65536 * (n % 16) + 65536) := by
  intro n
  induction n with
  | zero => intro hn p q; exact first_point m c ⟨0, hn⟩ rfl p q
  | succ n ih =>
    intro hn p q
    by_cases h0 : (n + 1) % 16 = 0
    · exact first_point m c ⟨n + 1, hn⟩ h0 p q
    · have e := later_point m c ⟨n + 1, hn⟩ h0 p q (64 * (n / 16) + p.val) (65536 * (n % 16) + 65536)
        (by show 64 * (n / 16) + p.val = 64 * ((n + 1) / 16) + p.val; omega)
        (by show 65536 * (n % 16) + 65536 = 65536 * ((n + 1) % 16); omega)
        (ih (Nat.lt_of_succ_lt hn) p q)
      rw [show 64 * ((n + 1) / 16) + p.val = 64 * (n / 16) + p.val by omega,
        show 65536 * ((n + 1) % 16) + 65536 = 65536 * (n % 16) + 65536 + 65536 by omega]
      exact e

/-- After a run's last point the accumulator holds the whole dot products: rows 64·(t/16) … of X · Wᵀ. -/
theorem acc_last (c : Dev nD) (t : Fin cfg0.N) (h1 : t.val % 16 = 15) (p : Fin 64) (q : Fin 10) (i0 : Fin 128)
    (hi : i0.val = 64 * (t.val / 16) + p.val) :
    (outsAt0 m c t.val t.isLt).2 (ix2 p q) = mulT (X m c) (W m c) (ix2 i0 q) := by
  rw [acc_inv m c t.val t.isLt p q, mulT_eq_rowDot (X m c) (W m c) (ix2 i0 q) (64 * (t.val / 16) + p.val) q.val hi rfl,
    h1]

/-- At a run's last point the output block is the epilogue's term of the accumulator's final contents. -/
theorem out_last (c : Dev nD) (t : Fin cfg0.N) (h0 : ¬t.val % 16 = 0) (h1 : t.val % 16 = 15) :
    (outsAt0 m c t.val t.isLt).1 = k0_pay3 (F := Ideal) ((outsAt0 m c t.val t.isLt).2) := by
  rw [outsAt0_C m c t h0 h1]
  dsimp only
  rw [Cert.KernelIdeal.Pieces.scratch_C (F := Ideal) c (grid0.coords t) (ms0_0 t) (hs0_0 t) (ms0_1 t)
      (hs0_1 t) (ms0_2 t) (hs0_2 t) scM0_0 (Memref.isWhole_whole _) (fun h => h0 ((hcond0_0 t).mp h))
      ((hcond0_1 t).mpr h1) (iblk m c 0 t) (iblk m c 1 t)
      (outsAt0 m c (t.val - 1) (Nat.lt_of_le_of_lt (Nat.sub_le _ _) t.isLt)).2]
  exact Cert.KernelIdeal.Pieces.out_C (F := Ideal) c (grid0.coords t) (ms0_0 t) (hs0_0 t) (ms0_1 t)
      (hs0_1 t) (ms0_2 t) (hs0_2 t) scM0_0 (Memref.isWhole_whole _) (fun h => h0 ((hcond0_0 t).mp h))
      ((hcond0_1 t).mpr h1) (iblk m c 0 t) (iblk m c 1 t)
      (outsAt0 m c (t.val - 1) (Nat.lt_of_le_of_lt (Nat.sub_le _ _) t.isLt)).2

end Cert.KernelIdeal.Accum

end
-- ==== Proof.KernelValue.lean ====
/-
  The kernel's result array, as one function of its two arguments.

  Only a run's last point writes its output block back, and the two row tiles' blocks tile the [128, 10] result. What
  such a point writes is the row-wise softmax of the accumulator, which by then holds rows 64·(t/16) … of X · Wᵀ; so
  the block is the block of the row-wise softmax of X · Wᵀ, and the whole array ends holding that function. X is the
  first argument re-laid as [128, 1048576]; W is the second argument transposed, so W(n, k) is the argument's (k, n).
-/
import proofs.«136202_j75625784148488_2_alg».proof.Proof.Accum
import proofs.«136202_j75625784148488_2_alg».proof.Proof.Gen.KernelIdeal.Value
import Idealize.ShloMosaic.Lib.Pipeline.Value
import Idealize.ShloMosaic.Lib.StableHlo.Run

noncomputable section

open scoped BigOperators

namespace Cert.KernelIdeal.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.BlockSum Cert.PoolSoftmax

variable (m : (ℓ : Loc nD τ sig) → Buf (Elt Ideal) ℓ) (ρ : Dev nD → PrngReg)

/-- X is the first argument re-laid. -/
theorem X_eq (c : Dev nD) :
    X m c = shapeCast S128x1048576 (m ((c : Thread nD τ).loc main_arg0)) shapeCasts_S128x1024x1024_S128x1048576 := by
  unfold X
  dsimp only [Gen.V, Gen.hostOps0]
  after_results
  rfl

/-- W is the second argument transposed … -/
theorem W_eq (c : Dev nD) :
    W m c = transpose S10x1048576 [1, 0] (m ((c : Thread nD τ).loc main_arg1)) transposes_S1048576x10_S10x1048576_1_0 := by
  unfold W
  dsimp only [Gen.V, Gen.hostOps0]
  after_results

/-- … so its entry (n, k) is the argument's entry (k, n). -/
theorem W_apply (c : Dev nD) (n : Fin 10) (k : Fin 1048576) :
    W m c (ix2 n k) = (m ((c : Thread nD τ).loc main_arg1) : S1048576x10.Idx → EReal) (ix2 k n) := by
  rw [W_eq]
  exact transpose_apply [1, 0] _ transposes_S1048576x10_S10x1048576_1_0 (ix2 n k) (ix2 k n) (fun b => by
    match b with
    | ⟨0, _⟩ => rfl
    | ⟨1, _⟩ => rfl)

/-- What a run's last point writes back is its block of the row-wise softmax of X · Wᵀ. -/
theorem flushed_eq (c : Dev nD) (t : Fin cfg0.N) (hf : (cfg0.win 2).flush t = true) :
    (dats m 0 c).flushed 2 t = ((cfg0.win 2).blk t).view.read (Elt Ideal) (pooled (X m c) (W m c)) := by
  have h1 : t.val % 16 = 15 := (flush0_2 t).mp hf
  have h0 : ¬t.val % 16 = 0 := by omega
  obtain ⟨-, -, -, -, e0, e1⟩ := idx_facts t
  rw [Cert.KernelIdeal.Value.flushed2 m c t, Accum.out_last m c t h0 h1]
  funext j
  rw [View.read_apply, cast_eq]
  refine (Cert.KernelIdeal.Body.pay3_at ((outsAt0 m c t.val t.isLt).2) ((cfg0.win 2).xinj (grid0.coords t) j)).trans ?_
  unfold pooled
  refine softmaxRow_congr2 (fun k => ?_) (Fin.ext ?_)
  · refine Accum.acc_last m c t h1 _ k _ ?_
    show win0_2.index t (0 : Fin 2) * 64 + 1 * (j 0).val = 64 * (t.val / 16) + (j 0).val
    rw [e0]; omega
  · show (j 1).val = win0_2.index t (1 : Fin 2) * 10 + 1 * (j 1).val
    rw [e1]; omega

/-- An index of the result is in point t's block iff each coordinate is in the block's range on its axis. -/
theorem mem_blk (t : Fin cfg0.N) (i : S128x10.Idx) :
    i ∈ ((cfg0.win 2).blk t).view.set ↔ ∀ a : Fin 2, win0_2.index t a * S64x10.size a ≤ (i a).val
      ∧ (i a).val < win0_2.index t a * S64x10.size a + S64x10.size a := by
  show i ∈ ((View.whole main_v2).slice (win0_2.rect t)).set ↔ _
  rw [View.set_slice_whole, Rect.mem_set_unit]
  exact Iff.rfl

/-- Every index of the result is in the block of its row tile's last point. -/
theorem cover (i : S128x10.Idx) :
    ∃ t : Fin cfg0.N, (cfg0.win 2).flush t = true ∧ i ∈ ((cfg0.win 2).blk t).view.set := by
  have hi0 : (i 0).val < 128 := (i 0).isLt
  have hi1 : (i 1).val < 10 := (i 1).isLt
  have hN : cfg0.N = 32 := N_0
  have hb : 16 * ((i 0).val / 64) + 15 < cfg0.N := by rw [hN]; omega
  refine ⟨⟨16 * ((i 0).val / 64) + 15, hb⟩, (flush0_2 _).mpr (by show (16 * ((i 0).val / 64) + 15) % 16 = 15; omega), ?_⟩
  rw [mem_blk]
  obtain ⟨-, -, -, -, e0, e1⟩ := idx_facts ⟨16 * ((i 0).val / 64) + 15, hb⟩
  have e0' : win0_2.index ⟨16 * ((i 0).val / 64) + 15, hb⟩ (0 : Fin 2) = (16 * ((i 0).val / 64) + 15) / 16 := e0
  intro a
  match a with
  | ⟨0, _⟩ =>
    show win0_2.index ⟨16 * ((i 0).val / 64) + 15, hb⟩ (0 : Fin 2) * 64 ≤ (i 0).val
      ∧ (i 0).val < win0_2.index ⟨16 * ((i 0).val / 64) + 15, hb⟩ (0 : Fin 2) * 64 + 64
    rw [e0']; omega
  | ⟨1, _⟩ =>
    show win0_2.index ⟨16 * ((i 0).val / 64) + 15, hb⟩ (1 : Fin 2) * 10 ≤ (i 1).val
      ∧ (i 1).val < win0_2.index ⟨16 * ((i 0).val / 64) + 15, hb⟩ (1 : Fin 2) * 10 + 10
    rw [e1]; omega

/-- So the result array ends holding the row-wise softmax of X · Wᵀ. -/
theorem final (c : Dev nD) : (dats m 0 c).arrAt 2 cfg0.N = pooled (X m c) (W m c) :=
  (dats m 0 c).arrAt_eq_of_cover 2 (pooled (X m c) (W m c)) (fun t hf => flushed_eq m c t hf) cover

/-- The kernel's run, read: the result at that function, the arguments unchanged. -/
theorem run : θ_run defs (onTc (τ := τ) (main (F := Ideal))) ⟨m, fun _ => 0, ρ⟩ fun r => ∀ c : Dev nD,
      r.2.mem ((c : Thread nD τ).loc main_v2) = pooled (X m c) (W m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.KernelValue

end
-- ==== Proof.RefValue.lean ====
/-
  The reference's result, entry by entry, is the row-wise softmax of X · Wᵀ.

  The reference contracts the [128, 1048576] re-laid argument with the [1048576, 10] argument itself: its logit at
  (b, n) is the sum over k of X(b, k) · filt(k, n), which is the dot product of row b of X with row n of any matrix
  Wt whose entry (n, k) is filt(k, n). Its row maximum is a host maximum-reduction from -inf, joined by a maximum with
  a broadcast -inf (which changes nothing: -inf is the least extended real); its row sum is a host sum from zero
  (which adds nothing); its exponential and quotient are the same functions the kernel's are.
-/
import proofs.«136202_j75625784148488_2_alg».proof.Proof.Gen.ReferenceIdeal.Read
import proofs.«136202_j75625784148488_2_alg».proof.Proof.Spec
import proofs.«136202_j75625784148488_2_alg».proof.Proof.LibMaxReduce
import Idealize.ShloMosaic.Lib.Pipeline.Value
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx
open Cert.ReferenceIdeal Cert.ReferenceIdeal.Gen Cert.ReferenceIdeal.Read Cert.BlockSum Cert.PoolSoftmax

variable (x0 : (⟨S128x1024x1024, .f32⟩ : BufTy).Contents (Elt Ideal)) (x1 : (⟨S1048576x10, .f32⟩ : BufTy).Contents (Elt Ideal))
variable (Wt : (⟨2, ![10, 1048576]⟩ : Shape).Idx → EReal)

/-- The logits: the host's contraction at (b, n) is the dot product of row b of X with row n of the transposed filter. -/
theorem logits_apply (hW : ∀ (n : Fin 10) (k : Fin 1048576), Wt (ix2 n k) = x1 (ix2 k n)) (b : Fin 128) (n : Fin 10) :
    val_main_v1 (F := Ideal) x0 x1 (ix2 b n) = mulT (val_main_v0 (F := Ideal) x0) Wt (ix2 b n) := by
  rw [val_main_v1_apply]
  unfold mulT
  refine Finset.sum_congr rfl fun k _ => ?_
  have el : lidx_main_v1 (ix2 b n) k = ix2 b k := funext fun a => Fin.ext (by
    match a with
    | ⟨0, _⟩ => rfl
    | ⟨1, _⟩ => rfl)
  have er : ridx_main_v1 (ix2 b n) k = ix2 k n := funext fun a => Fin.ext (by
    match a with
    | ⟨0, _⟩ => rfl
    | ⟨1, _⟩ => rfl)
  rw [el, er, hW n k]

/-- The row maximum, joined with -inf, carried back to [128, 10]: at (b, n) the supremum of row b of the logits. -/
theorem rowmax_apply (b : Fin 128) (n : Fin 10) :
    val_main_v6 (F := Ideal) x0 x1 (ix2 b n) = ⨆ k : Fin 10, val_main_v1 (F := Ideal) x0 x1 (ix2 b k) := by
  rw [val_main_v6_apply, val_main_v5_apply, val_main_v4_apply, val_main_v3_apply, val_main_cst_0_apply]
  unfold val_main_v2 val_main_cst
  rw [Cert.Lib.MaxReduce.hostMaxReduce_single (val_main_v1 (F := Ideal) x0 x1) reducesTo_S128x10_S128_d1
    (by decide : S128x10.Reduces [1] S128) h_S_]
  show max (Ideal.ofBits .f32 0xFF800000#32) _ = _
  rw [Cert.Lib.MaxReduce.ofBits_neg_inf_f32, max_eq_right bot_le]
  refine iSup_congr fun k => congrArg (val_main_v1 (F := Ideal) x0 x1) (funext fun a => Fin.ext ?_)
  rw [Shape.Reduces.lift_val]
  match a with
  | ⟨0, _⟩ => rfl
  | ⟨1, _⟩ => rfl

/-- The exponentials of the shifted logits. -/
theorem exp_apply (b : Fin 128) (n : Fin 10) :
    val_main_v8 (F := Ideal) x0 x1 (ix2 b n)
      = Ideal.exp (val_main_v1 (F := Ideal) x0 x1 (ix2 b n) - ⨆ k : Fin 10, val_main_v1 (F := Ideal) x0 x1 (ix2 b k)) := by
  rw [val_main_v8_apply]
  rw [val_main_v7_apply]
  rw [rowmax_apply x0 x1 b n]
  simp only [Ideal.hostUnary_exp_def, Ideal.subf_def]

/-- The row sum of the exponentials, carried back to [128, 10]. -/
theorem rowsum_apply (b : Fin 128) (n : Fin 10) :
    val_main_v11 (F := Ideal) x0 x1 (ix2 b n)
      = ∑ k' : Fin 10, Ideal.exp (val_main_v1 (F := Ideal) x0 x1 (ix2 b k')
          - ⨆ k : Fin 10, val_main_v1 (F := Ideal) x0 x1 (ix2 b k)) := by
  rw [val_main_v11_apply, val_main_v10_apply, val_main_v9_apply, val_main_cst_1_apply]
  show Ideal.ofBits .f32 0x00000000#32 + _ = _
  rw [Ideal.ofBits_zero_f32, zero_add]
  refine Finset.sum_congr rfl fun k' _ => ?_
  have e : idx_main_v9 (idx_main_v10 (idx_main_v11 (ix2 b n))) k' = ix2 b k' := funext fun a => Fin.ext (by
    match a with
    | ⟨0, _⟩ => rfl
    | ⟨1, _⟩ => rfl)
  rw [e, exp_apply]

/-- The reference's result is the row-wise softmax of X · Wtᵀ, for any Wt that is the filter transposed. -/
theorem result_eq (hW : ∀ (n : Fin 10) (k : Fin 1048576), Wt (ix2 n k) = x1 (ix2 k n)) :
    val_main_v12 (F := Ideal) x0 x1 = pooled (val_main_v0 (F := Ideal) x0) Wt := by
  funext i
  obtain ⟨b, n, rfl⟩ : ∃ (b : Fin 128) (n : Fin 10), i = ix2 b n := ⟨i 0, i 1, eq_ix2 i⟩
  rw [val_main_v12_apply, exp_apply, rowsum_apply]
  unfold pooled
  rw [← softmaxRow_congr (fun k => logits_apply x0 x1 Wt hW b k) n]
  rfl

end Cert.ReferenceIdeal.RefValue

end
-- ==== Proof.lean ====
/-
  A pooled softmax: both programs compute, for a batch X of 128 flattened images (1048576 numbers each) and a
  [1048576, 10] filter, the row-wise softmax of X · filter.

  The kernel re-lays the images as a [128, 1048576] matrix X and transposes the filter to W ([10, 1048576]); on a grid
  of two row tiles times sixteen reduction steps it accumulates, in a [64, 10] scratch block cleared at a run's
  first step, the products of [64, 65536] blocks of X with [10, 65536] blocks of W along their common second axis,
  and at a run's last step stores exp(y − max y) / Σ exp(y − max y) of each accumulated row y. The reference contracts
  the re-laid images with the filter itself in one product and applies the same softmax, its row maximum joined with a
  broadcast -inf. At the extended reals the two agree with no finiteness asked of any entry: a dot product over
  1048576 columns is the sum of its sixteen stretches of 65536 columns (associativity of addition), adding to zero
  and taking a maximum with -inf change nothing, and the exponential and the quotient are the same total functions
  on both sides.

  The three frames are the generated frame certificates (the reference's is its generated run with the result
  dropped); the idealization rewrote nothing, so that conjunct is trivial; the value conjunct sets the kernel's run,
  read as one function of its arguments, beside the reference's run, read as the same function.
-/
import proofs.«136202_j75625784148488_2_alg».proof.Defs
import proofs.«136202_j75625784148488_2_alg».proof.Proof.Gen.Kernel
import proofs.«136202_j75625784148488_2_alg».proof.Proof.Gen.Kernel.Skeleton
import proofs.«136202_j75625784148488_2_alg».proof.Proof.Gen.Kernel.Launch
import proofs.«136202_j75625784148488_2_alg».proof.Proof.Gen.Kernel.Points
import proofs.«136202_j75625784148488_2_alg».proof.Proof.Gen.Kernel.Frame
import proofs.«136202_j75625784148488_2_alg».proof.Proof.Gen.KernelIdeal
import proofs.«136202_j75625784148488_2_alg».proof.Proof.Gen.KernelIdeal.Skeleton
import proofs.«136202_j75625784148488_2_alg».proof.Proof.Gen.KernelIdeal.Launch
import proofs.«136202_j75625784148488_2_alg».proof.Proof.Gen.KernelIdeal.Points
import proofs.«136202_j75625784148488_2_alg».proof.Proof.Gen.KernelIdeal.Frame
import proofs.«136202_j75625784148488_2_alg».proof.Proof.Gen.ReferenceIdeal
import proofs.«136202_j75625784148488_2_alg».proof.Proof.Gen.KernelIdeal.Value
import proofs.«136202_j75625784148488_2_alg».proof.Proof.Gen.ReferenceIdeal.Run
import proofs.«136202_j75625784148488_2_alg».proof.Proof.Gen.ReferenceIdeal.Read
import proofs.«136202_j75625784148488_2_alg».proof.Proof.Gen.Pre_finite_inputs
import proofs.«136202_j75625784148488_2_alg».proof.Proof.KernelValue
import proofs.«136202_j75625784148488_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the row-wise softmax of X · Wᵀ, X the first argument re-laid and W the second
    transposed: the kernel's by its accumulated blocks, the reference's operation by operation. -/
theorem algebraic : Cert.algebraic_KernelIdeal_ReferenceIdeal := by
  intro m ρ m' ρ' _ hagree
  refine ⟨fun c => Cert.PoolSoftmax.pooled (Cert.KernelIdeal.Blocks.X m c) (Cert.KernelIdeal.Blocks.W m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2,
    Cert.ReferenceIdeal.RefValue.result_eq _ _ (Cert.KernelIdeal.Blocks.W m c)
      (fun n k => Cert.KernelIdeal.KernelValue.W_apply m c n k)]
  show Cert.PoolSoftmax.pooled _ _
    = Cert.PoolSoftmax.pooled (Cert.KernelIdeal.Blocks.X m c) (Cert.KernelIdeal.Blocks.W m c)
  rw [Cert.KernelIdeal.KernelValue.X_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
